-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.sign_bit.Statement Cert.KernelIdeal.S256x4096 .f32
  ∧ IdealRules.sign_bit.Statement Cert.KernelIdeal.S256x4096 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8192x4096 .f32) (main_arg1 : FVec F S4096x4096 .f32) (main_arg2 : FVec F S4096x4096 .f32) (main_arg3 : FVec F S4096 .f32) (main_arg4 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S256x4096 : Shape := ⟨2, ![256, 4096]⟩
abbrev S1024x4096 : Shape := ⟨2, ![1024, 4096]⟩
abbrev S1x1024 : Shape := ⟨2, ![1, 1024]⟩
abbrev S256x1024 : Shape := ⟨2, ![256, 1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S1x4096, .f32⟩
  | .hbm, ⟨7, _⟩ => ⟨S4096x4096, .bf16⟩
  | .hbm, ⟨8, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .bf16⟩
  | .local _ .vmem, ⟨5, _⟩ => ⟨S256x4096, .bf16⟩
  | .local _ .vmem, ⟨6, _⟩ => ⟨S256x4096, .f32⟩
  | .local _ .vmem, ⟨7, _⟩ => ⟨S256x4096, .f32⟩
  | .local _ .vmem, ⟨8, _⟩ => ⟨S1024x4096, .bf16⟩
  | .local _ .vmem, ⟨9, _⟩ => ⟨S1024x4096, .bf16⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  dot_S256x4096_S1024x4096_S256x1024_1_1_0_0_n_n_wf : DotDims.WF S256x4096 S1024x4096 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .bf16 = 32 ∨ (Rect.block (s := S4096x4096) S256x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .f32 = 32 ∨ (Rect.block (s := S8192x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S4096x4096.size a
  hwx1_1 : ∀ i : grid1.Coords, EltTy.bits .bf16 = 32 ∨ (Rect.block (s := S4096x4096) S1024x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S8192x4096.size a
  hwx1_3 : ∀ i : grid1.Coords, EltTy.bits .f32 = 32 ∨ (Rect.block (s := S8192x4096) S256x1024.size (cc1_transform_3 i) (hinb1_3 i)).WholeWords (EltTy.packing .f32)

variable [Facts₀]

def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S8192x4096, .f32⟩
  | .hbm, ⟨10, _⟩ => ⟨S1x4096, .f32⟩
  | .hbm, ⟨11, _⟩ => ⟨S8192x4096, .f32⟩
  | .hbm, ⟨12, _⟩ => ⟨S8192x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S8192x4096, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  The mathematics of the ternary linear layer, stated once over the extended reals, with no program in sight.

  The layer takes tokens `x` (8192 × 4096), two weight matrices `W1`, `W2` (4096 × 4096, output feature × input
  feature) and two bias vectors `b1`, `b2` (4096).  It is the difference of two binarized linear maps,
      out (r, c) = (Σ_k x (r, k) · sign W1 (c, k) + b1 c) − (Σ_k x (r, k) · sign W2 (c, k) + b2 c),
  and, collapsed into one product against the ternary matrix `sign W1 − sign W2`,
      out (r, c) = Σ_k x (r, k) · (sign W1 (c, k) − sign W2 (c, k)) + (b1 c − b2 c).
  The first form is what the reference computes — with each `sign w` written as the straight-through estimator
  `w + (sign w − w)` —, the second what the kernel computes in two passes: the ternary matrix first, then one
  matrix product with the bias difference added.  Both are defined here entry by entry; that they agree on finite
  inputs is the subject of the module `Algebra`.
-/
import Idealize.ShloMosaic.PureOps.Ideal
import Idealize.ShloMosaic.Lib.ValueIdx

noncomputable section

namespace Cert.Ternary

open Idealize.ShloMosaic Idealize.ShloMosaic.ValueIdx

/-- Tokens by input features. -/
abbrev SX : Shape := ⟨2, ![8192, 4096]⟩
/-- Output features by input features. -/
abbrev SW : Shape := ⟨2, ![4096, 4096]⟩
/-- One entry per output feature. -/
abbrev SB : Shape := ⟨1, ![4096]⟩
/-- The same as a single row. -/
abbrev SR : Shape := ⟨2, ![1, 4096]⟩

/-! ## The collapsed form: one product against the ternary matrix -/

/-- The ternary matrix: entry (c, k) is `sign W1 (c, k) − sign W2 (c, k)`, a value in {−2, −1, 0, 1, 2}. -/
def signDiff (W1 W2 : SW.Idx → EReal) : SW.Idx → EReal :=
  fun i => Ideal.sign (W1 i) - Ideal.sign (W2 i)

/-- The bias difference laid out as a row: entry (0, c) is `b1 c − b2 c`. -/
def biasRow (b1 b2 : SB.Idx → EReal) : SR.Idx → EReal :=
  fun j => b1 (ix1 (j 1)) - b2 (ix1 (j 1))

/-- Entry (r, c) of `x · Dᵀ` plus the row `ρ`: the sum over the input feature `k` of `x (r, k) · D (c, k)`, plus `ρ (0, c)`. -/
def affineAt (x : SX.Idx → EReal) (D : SW.Idx → EReal) (ρ : SR.Idx → EReal) (r : Fin 8192) (c : Fin 4096) : EReal :=
  (∑ k : Fin 4096, x (ix2 r k) * D (ix2 c k)) + ρ (ix2 (0 : Fin 1) c)

/-- `x · Dᵀ + ρ` as an array. -/
def affine (x : SX.Idx → EReal) (D : SW.Idx → EReal) (ρ : SR.Idx → EReal) : SX.Idx → EReal :=
  fun i => affineAt x D ρ (i 0) (i 1)

theorem affine_ix2 (x : SX.Idx → EReal) (D : SW.Idx → EReal) (ρ : SR.Idx → EReal) (r : Fin 8192) (c : Fin 4096) :
    affine x D ρ (ix2 r c) = affineAt x D ρ r c := rfl

/-- What the two-pass kernel computes: the product against the ternary matrix, plus the bias difference. -/
def collapsed (x : SX.Idx → EReal) (W1 W2 : SW.Idx → EReal) (b1 b2 : SB.Idx → EReal) : SX.Idx → EReal :=
  affine x (signDiff W1 W2) (biasRow b1 b2)

/-! ## The two-layer form: the difference of two binarized linear maps -/

/-- The straight-through estimator's forward value as it is written: `w + (sign w − w)`. On a finite `w` this is `sign w`. -/
def ste (w : EReal) : EReal := w + (Ideal.sign w - w)

/-- Entry (r, c) of one binarized linear map: `Σ_k x (r, k) · ste (W (c, k)) + b c`. -/
def binLinearAt (x : SX.Idx → EReal) (W : SW.Idx → EReal) (b : SB.Idx → EReal) (r : Fin 8192) (c : Fin 4096) : EReal :=
  (∑ k : Fin 4096, x (ix2 r k) * ste (W (ix2 c k))) + b (ix1 c)

/-- What the reference computes: the first binarized linear map minus the second. -/
def twoLayer (x : SX.Idx → EReal) (W1 W2 : SW.Idx → EReal) (b1 b2 : SB.Idx → EReal) : SX.Idx → EReal :=
  fun i => binLinearAt x W1 b1 (i 0) (i 1) - binLinearAt x W2 b2 (i 0) (i 1)

theorem twoLayer_ix2 (x : SX.Idx → EReal) (W1 W2 : SW.Idx → EReal) (b1 b2 : SB.Idx → EReal) (r : Fin 8192) (c : Fin 4096) :
    twoLayer x W1 W2 b1 b2 (ix2 r c) = binLinearAt x W1 b1 r c - binLinearAt x W2 b2 r c := rfl

end Cert.Ternary

end
-- ==== Proof.Algebra.lean ====
/-
  On finite inputs the two-layer form of the ternary linear layer equals the collapsed form.

  Entry (r, c) of the two-layer form is
      (Σ_k x (r, k) · ste (W1 (c, k)) + b1 c) − (Σ_k x (r, k) · ste (W2 (c, k)) + b2 c),      ste w = w + (sign w − w),
  and of the collapsed form
      Σ_k x (r, k) · (sign W1 (c, k) − sign W2 (c, k)) + (b1 c − b2 c).
  Three facts join them, and each needs the entries to be real numbers: `w + (sign w − w) = sign w` (cancelling `w` fails at
  an infinity, where `∞ − ∞` is not `0`); `x · s1 − x · s2 = x · (s1 − s2)` (distributivity fails when `x` is infinite and
  `s1 = s2`); and the regrouping of the two sums and the two biases, which moves a subtraction across a sum.  So the proof
  chooses the real numbers the entries are, pushes the embedding of the reals outward through every product, difference and
  finite sum, and is left with an identity of real numbers, a matter of distributing and regrouping.
-/
import proofs.«101221_j8942121910926_2_alg».proof.Proof.Spec

noncomputable section

namespace Cert.Ternary

open Idealize.ShloMosaic Idealize.ShloMosaic.ValueIdx

/-- The embedding of the reals commutes with a finite sum. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The sign of a real number is a real number. -/
theorem sign_coe_real (w : ℝ) : Ideal.sign (w : EReal) = ((SignType.sign w : ℝ) : EReal) := Ideal.sign_coe w

/-- On a real number the straight-through form `w + (sign w − w)` is `sign w`: the two copies of `w` cancel. -/
theorem ste_coe (w : ℝ) : ste (w : EReal) = Ideal.sign (w : EReal) := by
  unfold ste
  rw [sign_coe_real, ← EReal.coe_sub, ← EReal.coe_add]
  exact congrArg _ (by ring)

/-- The identity over the reals, for any finite index set: the difference of two affine sums is the affine sum of the
    differences. -/
theorem real_collapse {ι : Type*} [Fintype ι] (a s t : ι → ℝ) (p q : ℝ) :
    ((∑ k, a k * s k) + p) - ((∑ k, a k * t k) + q) = (∑ k, a k * (s k - t k)) + (p - q) := by
  have h : ∑ k, a k * (s k - t k) = (∑ k, a k * s k) - ∑ k, a k * t k := by
    rw [← Finset.sum_sub_distrib]
    exact Finset.sum_congr rfl fun k _ => mul_sub _ _ _
  rw [h]; ring

/-- The same identity on the extended reals, where every term is the embedding of a real number. -/
theorem ereal_collapse {ι : Type*} [Fintype ι] (a s t : ι → ℝ) (p q : ℝ) :
    ((∑ k, (a k : EReal) * (s k : EReal)) + (p : EReal)) - ((∑ k, (a k : EReal) * (t k : EReal)) + (q : EReal))
      = (∑ k, (a k : EReal) * ((s k : EReal) - (t k : EReal))) + ((p : EReal) - (q : EReal)) := by
  simp only [← EReal.coe_mul, ← EReal.coe_sub, ← coe_sum, ← EReal.coe_add]
  exact congrArg _ (real_collapse a s t p q)

/-- Entry by entry: one binarized linear map minus the other is the product against the ternary matrix plus the bias
    difference, when every entry of every input is a real number. -/
theorem twoLayerAt_eq_collapsedAt (x : SX.Idx → EReal) (W1 W2 : SW.Idx → EReal) (b1 b2 : SB.Idx → EReal)
    (hx : ∀ i, ∃ r : ℝ, x i = (r : EReal)) (h1 : ∀ i, ∃ r : ℝ, W1 i = (r : EReal)) (h2 : ∀ i, ∃ r : ℝ, W2 i = (r : EReal))
    (hb1 : ∀ i, ∃ r : ℝ, b1 i = (r : EReal)) (hb2 : ∀ i, ∃ r : ℝ, b2 i = (r : EReal)) (r : Fin 8192) (c : Fin 4096) :
    binLinearAt x W1 b1 r c - binLinearAt x W2 b2 r c = affineAt x (signDiff W1 W2) (biasRow b1 b2) r c := by
  choose xr hxr using hx
  choose w1 hw1 using h1
  choose w2 hw2 using h2
  choose β1 hβ1 using hb1
  choose β2 hβ2 using hb2
  unfold binLinearAt affineAt signDiff biasRow
  show ((∑ k : Fin 4096, x (ix2 r k) * ste (W1 (ix2 c k))) + b1 (ix1 c)) - ((∑ k : Fin 4096, x (ix2 r k) * ste (W2 (ix2 c k))) + b2 (ix1 c))
      = (∑ k : Fin 4096, x (ix2 r k) * (Ideal.sign (W1 (ix2 c k)) - Ideal.sign (W2 (ix2 c k)))) + (b1 (ix1 c) - b2 (ix1 c))
  simp only [hxr, hw1, hw2, hβ1, hβ2, ste_coe, sign_coe_real]
  exact ereal_collapse (fun k => xr (ix2 r k)) (fun k => (SignType.sign (w1 (ix2 c k)) : ℝ)) (fun k => (SignType.sign (w2 (ix2 c k)) : ℝ))
    (β1 (ix1 c)) (β2 (ix1 c))

/-- The two forms are one array on finite inputs. -/
theorem twoLayer_eq_collapsed (x : SX.Idx → EReal) (W1 W2 : SW.Idx → EReal) (b1 b2 : SB.Idx → EReal)
    (hx : ∀ i, ∃ r : ℝ, x i = (r : EReal)) (h1 : ∀ i, ∃ r : ℝ, W1 i = (r : EReal)) (h2 : ∀ i, ∃ r : ℝ, W2 i = (r : EReal))
    (hb1 : ∀ i, ∃ r : ℝ, b1 i = (r : EReal)) (hb2 : ∀ i, ∃ r : ℝ, b2 i = (r : EReal)) :
    twoLayer x W1 W2 b1 b2 = collapsed x W1 W2 b1 b2 :=
  funext fun i => twoLayerAt_eq_collapsedAt x W1 W2 b1 b2 hx h1 h2 hb1 hb2 (i 0) (i 1)

end Cert.Ternary

end
-- ==== Proof.Finite.lean ====
/-
  The precondition, read back. The printed predicate is the conjunction of five tests, one per input array,
  each of the form "every entry v satisfies |v| < +inf". On the extended reals |v| is max v (-v), the
  literal 0x7F800000 is the f32 pattern of +inf (sign 0, exponent all ones, fraction 0), that is ⊤, and
  max v (-v) < ⊤ rules out both v = ⊤ and v = ⊥ (for either of them max v (-v) = ⊤). What is left is the
  coercion of a real number. So the precondition says exactly: every entry of every input is a real.
-/
import proofs.«101221_j8942121910926_2_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section
namespace Cert.Pre_finite_inputs.Finite
open Idealize.ShloMosaic Cert.Pre_finite_inputs

/-- The rank-0 shape has exactly one index (the empty tuple of coordinates). -/
instance subsingleton_scalar_idx : Subsingleton S_.Idx := ⟨fun a b => funext fun d => d.elim0⟩

/-- The f32 pattern 0x7F800000 (sign 0, exponent field all ones, fraction 0) denotes +inf. -/
theorem inf_literal : Ideal.ofBits .f32 0x7F800000#32 = (⊤ : EReal) := by
  simp [Ideal.ofBits, Ideal.ieee]

/-- An extended real whose absolute value max v (-v) lies strictly below +inf is a real number:
    at v = ⊥ the maximum is -⊥ = ⊤, at v = ⊤ it is ⊤, and ⊤ < ⊤ is false. -/
theorem real_of_abs_lt (v : EReal)
    (hv : FloatOps.cmpf (F := Ideal) (φ := .f32) .olt (FloatOps.hostAbsf v) (Ideal.ofBits .f32 0x7F800000#32) = 1#1) :
    ∃ r : ℝ, v = (r : EReal) := by
  rw [inf_literal, Ideal.cmpf_def, Ideal.hostAbsf_def, Ideal.absf_def] at hv
  induction v using EReal.rec with
  | bot => simp [Ideal.cmp] at hv
  | coe r => exact ⟨r, rfl⟩
  | top => simp [Ideal.cmp] at hv

/-- One test of the precondition, for an array of any shape: if the conjunction over all entries of
    "|v i| < +inf" came out true, every entry of v is a real number. The conjunction over all axes has a
    single result index, so its being 1 gives the compared bit 1 at every index i; that bit is the scalar
    comparison of |v i| with the broadcast literal +inf. -/
theorem all_real {s : Shape} {axes : List (Fin s.rank)} (v : FVec Ideal s .f32)
    (hb : S_.BroadcastsInDim s (![] : Fin 0 → Fin s.rank)) (hred : s.ReducesTo axes S_) (hu : 0 < S_.numel)
    (e : Host.reduce IntOp.andi
          (cmpf .olt (Host.absf v) (broadcastInDim s ![] hb (constant (F := Ideal) S_ .f32 0x7F800000#32)))
          (constantI S_ 1 1#1) hred hu ValueIdx.ix0 = 1#1)
    (i : s.Idx) : ∃ r : ℝ, v i = (r : EReal) :=
  real_of_abs_lt (v i) (Host.reduce_andi_all _ _ hred hu _ e i)

/-- Under the precondition every entry of every input array is a real number. -/
theorem entries_real [Cert.Pre_finite_inputs.Facts] (x : FVec Ideal S8192x4096 .f32) (w1 w2 : FVec Ideal S4096x4096 .f32) (b1 b2 : FVec Ideal S4096 .f32)
    (h : Cert.Pre_finite_inputs.fn (F := Ideal) x w1 w2 b1 b2 = fun _ => 1#1) :
    (∀ i, ∃ r : ℝ, x i = (r : EReal)) ∧ (∀ i, ∃ r : ℝ, w1 i = (r : EReal)) ∧ (∀ i, ∃ r : ℝ, w2 i = (r : EReal))
      ∧ (∀ i, ∃ r : ℝ, b1 i = (r : EReal)) ∧ (∀ i, ∃ r : ℝ, b2 i = (r : EReal)) := by
  -- the predicate's value at its one index, written out as the nest of five conjuncts
  have h0 := congrFun h ValueIdx.ix0
  dsimp only [fn, fn_part1, andi] at h0
  -- a conjunction of bits is 1 exactly when both bits are
  simp only [IntOp.andi_eq_one] at h0
  obtain ⟨⟨⟨⟨hx, hw1⟩, hw2⟩, hb1⟩, hb2⟩ := h0
  exact ⟨all_real x _ _ _ hx, all_real w1 _ _ _ hw1, all_real w2 _ _ _ hw2, all_real b1 _ _ _ hb1, all_real b2 _ _ _ hb2⟩

end Cert.Pre_finite_inputs.Finite
end
-- ==== Proof.Reference.lean ====
/-
  The reference, read one operation at a time, is the two-layer form of the specification.

  The reference computes, for each of the two weight matrices W, the binarized weights w + (sign w − w) entry
  by entry, transposes them, multiplies the tokens against the transposed matrix (contracting the tokens' column
  with the transposed matrix's row, that is, with W's column), adds the bias broadcast along the rows, and then
  subtracts the second such result from the first. Reading entry (r, c) backwards through these operations:
    * the subtraction and the two additions read their operands at (r, c);
    * the product's entry is the sum over k of x (r, k) times the transposed matrix at (k, c);
    * the transpose reads (k, c) at (c, k);
    * the two broadcasts read the bias at (0, c) and then at c.
  Nothing is computed: every step only says at which index an operand is read. The result is, term for term,
      (Σ_k x (r, k) · ste (W1 (c, k)) + b1 c) − (Σ_k x (r, k) · ste (W2 (c, k)) + b2 c),
  with ste w = w + (sign w − w). This holds at every input; no finiteness is used.
-/
import proofs.«101221_j8942121910926_2_alg».proof.Proof.Gen.ReferenceIdeal.Read
import proofs.«101221_j8942121910926_2_alg».proof.Proof.Spec
import Idealize.ShloMosaic.PureOps.Ideal.Laws

noncomputable section
namespace Cert.ReferenceIdeal.RefValue
open Cert.ReferenceIdeal Cert.ReferenceIdeal.Gen Idealize.ShloMosaic Idealize.ShloMosaic.TcCoe Idealize.SL.Sem
open Idealize.ShloMosaic.ValueIdx
open Cert.ReferenceIdeal.Read

/-! ## Where each operation reads: the composed index maps, in coordinates -/

/-- The product's left operand, the tokens, is read at (r, k). -/
theorem lidx_v4 (r : Fin 8192) (c k : Fin 4096) : lidx_main_v4 (ix2 r c) k = ix2 r k :=
  funext fun a => Fin.ext (by match a with | ⟨0, _⟩ => rfl | ⟨1, _⟩ => rfl)

/-- The product's right operand is read at (k, c), and the transpose reads that at (c, k). -/
theorem ridx_v4 (r : Fin 8192) (c k : Fin 4096) : idx_main_v3 (ridx_main_v4 (ix2 r c) k) = ix2 c k :=
  funext fun a => Fin.ext (by match a with | ⟨0, _⟩ => rfl | ⟨1, _⟩ => rfl)

/-- The same two readings for the second product. -/
theorem lidx_v12 (r : Fin 8192) (c k : Fin 4096) : lidx_main_v12 (ix2 r c) k = ix2 r k :=
  funext fun a => Fin.ext (by match a with | ⟨0, _⟩ => rfl | ⟨1, _⟩ => rfl)

theorem ridx_v12 (r : Fin 8192) (c k : Fin 4096) : idx_main_v11 (ridx_main_v12 (ix2 r c) k) = ix2 c k :=
  funext fun a => Fin.ext (by match a with | ⟨0, _⟩ => rfl | ⟨1, _⟩ => rfl)

/-- The bias, broadcast first to a row and then along the rows, is read at (0, c) and then at c. -/
theorem idx_v5 (r : Fin 8192) (c : Fin 4096) : idx_main_v5 (idx_main_v6 (ix2 r c)) = ix1 c :=
  funext fun a => Fin.ext (by match a with | ⟨0, _⟩ => rfl)

theorem idx_v13 (r : Fin 8192) (c : Fin 4096) : idx_main_v13 (idx_main_v14 (ix2 r c)) = ix1 c :=
  funext fun a => Fin.ext (by match a with | ⟨0, _⟩ => rfl)

/-- The reference's result is the difference of the two binarized linear maps, entry by entry. -/
theorem value_eq (x0 : (⟨S8192x4096, .f32⟩ : BufTy).Contents (Elt Ideal)) (x1 x2 : (⟨S4096x4096, .f32⟩ : BufTy).Contents (Elt Ideal))
    (x3 x4 : (⟨S4096, .f32⟩ : BufTy).Contents (Elt Ideal)) :
    Cert.ReferenceIdeal.Read.val_main_v16 (F := Ideal) x0 x1 x2 x3 x4 = Cert.Ternary.twoLayer x0 x1 x2 x3 x4 := by
  funext i
  -- an entry of the result is named by its row r and its column c
  obtain ⟨r, c, rfl⟩ : ∃ (r : Fin 8192) (c : Fin 4096), i = ix2 r c := ⟨i 0, i 1, eq_ix2 i⟩
  rw [Cert.Ternary.twoLayer_ix2]
  unfold Cert.Ternary.binLinearAt Cert.Ternary.ste
  -- the outer operations: subtraction, the two additions, the two products, the four broadcasts
  rw [val_main_v16_apply, val_main_v7_apply, val_main_v15_apply, val_main_v4_apply, val_main_v12_apply,
    val_main_v6_apply, val_main_v14_apply, val_main_v5_apply, val_main_v13_apply, idx_v5, idx_v13]
  -- under the sums: the transpose, then w + (sign w − w) at the transposed index
  simp only [val_main_v3_apply, val_main_v11_apply, val_main_v2_apply, val_main_v10_apply, val_main_v1_apply,
    val_main_v9_apply, val_main_v0_apply, val_main_v8_apply, lidx_v4, ridx_v4, lidx_v12, ridx_v12,
    Ideal.subf_def, Ideal.addf_def, Ideal.hostUnary_sign_def]

end Cert.ReferenceIdeal.RefValue
end
-- ==== Proof.KernelRun.lean ====
/-
  The kernel program's run, with its result named.

  The program is three segments: two host operations (the bias difference `b1 − b2`, then its reshape to a row), pass 1
  (the ternary matrix) and pass 2 (the product and the bias row).  The buffer contents at the boundaries between segments
  are a fold from the launch memory: after the host operations; after pass 1, whose output array holds what its sixteen
  write-backs leave; after pass 2, likewise with its 128 write-backs.  Every weakly fair execution ends with each buffer at
  the last boundary's contents; read at the result buffer that is pass 2's output array, and read at an argument it is the
  launch contents.  This module states that run, and says what each pass finds in the arrays it reads: pass 1 finds the two
  weight matrices as launched; pass 2 finds the tokens as launched, the ternary matrix as pass 1 left it, and the bias row
  the host operations wrote.
-/
import proofs.«101221_j8942121910926_2_alg».proof.Proof.Gen.KernelIdeal.Frame
import proofs.«101221_j8942121910926_2_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section AnyFloats

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each pass finds -/

/-- Pass 2's output array after its last write-back is the result buffer's final contents. -/
theorem result_eq (c : Dev nD) : W3 m ρ c (Proc.devRef .tc main_v3) = (dat1 (V2 m ρ) c).arrAt 3 cfg1.N :=
  W3_arr m ρ c 3

/-- Pass 2 reads the ternary matrix where pass 1 left it: pass 1's output array after its last write-back. -/
theorem found_signDiff (c : Dev nD) : V2 m ρ c main_v2 = (dat0 (V1 m ρ) c).arrAt 2 cfg0.N :=
  W2_arr m ρ c 2

/-- Pass 2 finds the tokens as launched: neither the host operations nor pass 1 write them. -/
theorem found_x (c : Dev nD) : V2 m ρ c main_arg0 = m ((c : Thread nD τ).loc main_arg0) := by
  show W2 m ρ c (Proc.devRef .tc main_arg0) = _
  rw [W2_of_ne m ρ c main_arg0 (by decide)]
  show StableHlo.after hostOps0 (W0 m ρ c) (Proc.devRef .tc main_arg0) = _
  after_results

/-- Pass 1 finds the first weight matrix as launched. -/
theorem found_W1 (c : Dev nD) : V1 m ρ c main_arg1 = m ((c : Thread nD τ).loc main_arg1) := by
  show StableHlo.after hostOps0 (W0 m ρ c) (Proc.devRef .tc main_arg1) = _
  after_results

/-- Pass 1 finds the second weight matrix as launched. -/
theorem found_W2 (c : Dev nD) : V1 m ρ c main_arg2 = m ((c : Thread nD τ).loc main_arg2) := by
  show StableHlo.after hostOps0 (W0 m ρ c) (Proc.devRef .tc main_arg2) = _
  after_results

/-! ## The run -/

set_option backward.isDefEq.respectTransparency.types false in
/-- Every weakly fair execution of the kernel program terminates, nothing faulting, with the result buffer at the last
    boundary's contents and the five arguments as launched. -/
theorem run_result : θ_run defs (onTc (τ := τ) (main (F := F))) ⟨m, fun _ => 0, ρ⟩ (fun r => ∀ c : Dev nD,
      r.2.mem ((c.tc : Thread nD τ).loc main_v3) = W3 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v3 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end AnyFloats

/-! ## The bias row, on the extended reals -/

section OnExtendedReals

variable (m : (ℓ : Loc nD τ sig) → Buf (Elt Ideal) ℓ) (ρ : Dev nD → PrngReg)

/-- Pass 2 finds, in the bias row's buffer, what the two host operations wrote: entry (0, c) is `b1 c − b2 c` of the
    biases as launched (the subtraction entry by entry, and the reshape of a vector to a one-row matrix moves no entry).
    Neither pass writes that buffer. -/
theorem found_biasRow (c : Dev nD) :
    V2 m ρ c main_v1 = Cert.Ternary.biasRow (m ((c : Thread nD τ).loc main_arg3)) (m ((c : Thread nD τ).loc main_arg4)) := by
  show W2 m ρ c (Proc.devRef .tc main_v1) = _
  rw [W2_of_ne m ρ c main_v1 (by decide)]
  show StableHlo.after hostOps0 (W0 m ρ c) (Proc.devRef .tc main_v1) = _
  after_results
  funext j
  obtain ⟨u, q, rfl⟩ : ∃ (u : Fin 1) (q : Fin 4096), j = ix2 u q := ⟨j 0, j 1, eq_ix2 j⟩
  show shapeCast S1x4096 (subf (F := Ideal) (s := S4096) (φ := .f32) (m ((c : Thread nD τ).loc main_arg3)) (m ((c : Thread nD τ).loc main_arg4)))
      shapeCasts_S4096_S1x4096 (ix2 u q) = _
  rw [shapeCast_a_1a_apply]
  rfl

end OnExtendedReals

end Cert.KernelIdeal.RunValue

end
-- ==== Proof.SignDiff.lean ====
/-
  Pass 1 of the ternary linear layer: the matrix `sign W1 − sign W2`.

  The pass walks the two 4096 × 4096 weight matrices in 16 blocks of 256 rows each. At grid point `t` it reads
  rows 256·t … 256·t + 255 of `W1` and of `W2`, forms `sign w1 − sign w2` entry by entry, and writes the result
  to the same rows of the output. That the output array ends as the ternary matrix of the arrays the pass found
  rests on three facts, proved below in this order:

    1. AT ONE ENTRY the value the body stores is `sign (x0 j) − sign (x1 j)`: the subtraction is entrywise, the
       narrowing to sixteen bits is the identity on extended reals, and the sign function as the kernel writes it,
       `select (|v| > 0) (select (v < 0) (−1) 1) v`, is `Ideal.sign v` at every extended real `v`, zero and the two
       infinities included.
    2. AT ONE GRID POINT the three windows (the two inputs and the output) have the same index map `t ↦ (t, 0)`, so
       entry `j` of each window's block at point `t` sits at the same place `(256·t + j₀, j₁)` of its array. Hence
       what point `t` writes back is exactly block `t` of the ternary matrix.
    3. OVER THE GRID row `r` of the array lies in the block of point `r / 256`, and `r / 256 < 16` since `r < 4096`:
       the 16 blocks cover the array, and every point writes its block back.

  Nothing here depends on what the arrays hold when the pass starts: the statement is at any entry contents `V`.
-/
import proofs.«101221_j8942121910926_2_alg».proof.Proof.Gen.KernelIdeal.Frame
import proofs.«101221_j8942121910926_2_alg».proof.Proof.Spec
import Idealize.ShloMosaic.Lib.Pipeline.Value
import Idealize.ShloMosaic.Lib.ValueIdx
import Idealize.ShloMosaic.PureOps.Ideal.Laws

noncomputable section
namespace Cert.KernelIdeal.SignDiff
open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## 1. The body's stored value at one entry -/

/-- Entry `j` of what the body stores, for any two loaded blocks `x0`, `x1`: `sign (x0 j) − sign (x1 j)`.
    Unfolded, the stored vector is `truncf (subf s0 s1)` with `sᵢ` the select-form of the sign of `xᵢ`. Over the
    extended reals `truncf` changes nothing and `subf` subtracts entry by entry, so entry `j` is `s0 j − s1 j`
    as it stands; each `sᵢ j` is the select-form at the single value `xᵢ j`, which is `Ideal.sign (xᵢ j)`. -/
theorem payload_apply (x0 x1 : Vec Ideal S256x4096 .f32) (j : S256x4096.Idx) :
    k0_pay1 x0 x1 j = Ideal.sign (x0 j) - Ideal.sign (x1 j) := by
  unfold k0_pay1
  exact congrArg₂ (· - ·) (Ideal.jnp_sign_eq_sign_f32 (x0 j)) (Ideal.jnp_sign_eq_sign_f32 (x1 j))

/-! ## 2. What one grid point writes back -/

/-- The body loads and stores each whole 256 × 4096 block from its corner: the offset `(0, 0)` is the zero offset. -/
theorem offset_zero : (![0, 0] : Fin 2 → Nat) = fun _ => 0 := funext fun a => by fin_cases a <;> rfl

/-- The three index maps, decided over the 16 grid points: on both axes each input window's block index is the
    output window's, and the output's block index at point `t` is `(t, 0)` — row block `t`, the one column block. -/
theorem index_facts : ∀ t : Fin cfg0.N,
    win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) = t.val
    ∧ win0_2.index t (1 : Fin 2) = 0 :=
  (by decide +kernel : ∀ t : Fin grid0.N, _)

/-- What point `t` writes back to the output array is block `t` of the ternary matrix `sign W1 − sign W2` of the
    arrays the pass found. The output's buffer after the body is the one whole-block store of the payload of the two
    input blocks; at entry `j` that is `sign (W1 p) − sign (W2 q)` (`payload_apply`), where `p`, `q` are the places
    of entry `j` of the two input blocks in their arrays. A block's entry `j` sits, on each axis, at
    block index × block size + `j`'s coordinate; the input windows' block indices are the output's (`index_facts`), so
    `p` and `q` are both the place of entry `j` of the OUTPUT's block — which is where block `t` of the ternary
    matrix reads `W1` and `W2`. -/
theorem flushed_eq (c : Dev nD) (t : Fin cfg0.N) :
    (dat0 (F := Ideal) V c).flushed 2 t
      = ((cfg0.win 2).blk t).view.read (Elt Ideal) (Cert.Ternary.signDiff (V c main_arg1) (V c main_arg2)) := by
  show (cfg0.win 2).cut (grid0.coords t) ((dat0 V c).after 2 t) = _
  rw [after0_2]
  unfold out0_2
  -- one store of the whole block at the zero offset: the buffer IS the payload of the blocks as loaded whole
  rw [View.canon_unit_zero offset_zero]
  simp only [View.ld_unit_zero (S := S256x4096) offset_zero]
  obtain ⟨e0, e1, e2, e3, -, -⟩ := index_facts t
  funext j
  show k0_pay1 (iblk0 V c 0 t) (iblk0 V c 1 t) j = _
  refine (payload_apply _ _ j).trans ?_
  -- both sides entry by entry: the inputs read through their own blocks, the ternary matrix through the output's
  show Ideal.sign (V c main_arg1 (((cfg0.win 0).blk t).view.emb j)) - Ideal.sign (V c main_arg2 (((cfg0.win 1).blk t).view.emb j))
     = Ideal.sign (V c main_arg1 (((cfg0.win 2).blk t).view.emb j)) - Ideal.sign (V c main_arg2 (((cfg0.win 2).blk t).view.emb j))
  -- entry `j` of `W1`'s block is at the same place as entry `j` of the output's block …
  have h0 : ((cfg0.win 0).blk t).view.emb j = ((cfg0.win 2).blk t).view.emb j := by
    funext a; apply Fin.ext
    match a with
    | ⟨0, _⟩ => show win0_0.index t (0 : Fin 2) * 256 + 1 * (j 0).val = win0_2.index t (0 : Fin 2) * 256 + 1 * (j 0).val; omega
    | ⟨1, _⟩ => show win0_0.index t (1 : Fin 2) * 4096 + 1 * (j 1).val = win0_2.index t (1 : Fin 2) * 4096 + 1 * (j 1).val; omega
  -- … and so is entry `j` of `W2`'s block
  have h1 : ((cfg0.win 1).blk t).view.emb j = ((cfg0.win 2).blk t).view.emb j := by
    funext a; apply Fin.ext
    match a with
    | ⟨0, _⟩ => show win0_1.index t (0 : Fin 2) * 256 + 1 * (j 0).val = win0_2.index t (0 : Fin 2) * 256 + 1 * (j 0).val; omega
    | ⟨1, _⟩ => show win0_1.index t (1 : Fin 2) * 4096 + 1 * (j 1).val = win0_2.index t (1 : Fin 2) * 4096 + 1 * (j 1).val; omega
  rw [h0, h1]

/-! ## 3. The 16 blocks cover the array -/

/-- A place `i` of the output array is in point `t`'s block exactly when, on each axis, its coordinate lies in the
    block's range: from block index × block size, for one block size. -/
theorem mem_block (t : Fin cfg0.N) (i : S4096x4096.Idx) :
    i ∈ ((cfg0.win 2).blk t).view.set ↔ ∀ a : Fin 2, win0_2.index t a * S256x4096.size a ≤ (i a).val ∧ (i a).val < win0_2.index t a * S256x4096.size a + S256x4096.size a := by
  show i ∈ ((View.whole main_v2).slice (win0_2.rect t)).set ↔ _
  rw [View.set_slice_whole, Rect.mem_set_unit]
  exact Iff.rfl

/-- Every place `(r, k)` of the array is in the block of a point that writes back: the point `t = r / 256`, a grid
    point because `r < 4096 = 16 · 256`. Its block holds rows `256·t ≤ r < 256·t + 256` (division with remainder)
    and all 4096 columns. -/
theorem covered (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  have hN : cfg0.N = 16 := N_0
  obtain ⟨t, ht⟩ : ∃ t : Fin cfg0.N, t.val = (i 0).val / 256 := ⟨⟨(i 0).val / 256, by rw [hN]; omega⟩, rfl⟩
  obtain ⟨-, -, -, -, e4, e5⟩ := index_facts t
  refine ⟨t, flush0_2 t, ?_⟩
  rw [mem_block]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 4096 ≤ (i 1).val ∧ (i 1).val < win0_2.index t (1 : Fin 2) * 4096 + 4096; omega

/-! ## The array after the pass -/

/-- After pass 1 the output array holds, entry by entry, sign W1 − sign W2 of the arrays the pass found. -/
theorem array_eq (c : Dev nD) :
    (dat0 (F := Ideal) V c).arrAt 2 cfg0.N = Cert.Ternary.signDiff (V c main_arg1) (V c main_arg2) :=
  -- every point writes back block `t` of the ternary matrix (`flushed_eq`), and the blocks cover the array (`covered`)
  (dat0 (F := Ideal) V c).arrAt_eq_of_cover 2 _ (fun t _ => flushed_eq V c t) covered

end Cert.KernelIdeal.SignDiff
end
-- ==== Proof.MatMul.lean ====
/-
  Pass 2 of the ternary linear layer: the matrix product against the ternary matrix, plus the bias row.

  The pass runs over a grid of 4 × 32 points (i0, i1).  At point (i0, i1) it reads rows 256·i1 … 256·i1 + 255 of the
  tokens `x` (all 4096 input features), rows 1024·i0 … 1024·i0 + 1023 of the ternary matrix `D` (output feature ×
  input feature), and entries 1024·i0 … 1024·i0 + 1023 of the bias row `ρ`; it writes the 256 × 1024 block of the
  output whose corner is (256·i1, 1024·i0).  Entry (p, q) of what it writes is
      Σ_k xblock (p, k) · Dblock (q, k) + ρblock (0, q):
  both operands of the product are contracted along their SECOND axis, so the product is x · Dᵀ.

  The module proves, for any contents `V` the pass finds in its arrays, that the output array after the pass is
      out (r, c) = Σ_k x (r, k) · D (c, k) + ρ (0, c)           (`Cert.Ternary.affine`).
  Four steps:
    1. the body's stored value at entry (p, q) of a block, as the sum above over the three blocks it loaded;
    2. what a point writes back is the block of `affine x D ρ` under that point's output rectangle: row p of the
       point's x-block is row 256·i1 + p of x, which is the array row of the output block's row p; row q of its D-block
       is row 1024·i0 + q of D, which is the array COLUMN of the output block's column q; likewise the bias entry;
    3. every entry (r, c) of the output lies in the block of the point with i1 = r / 256 and i0 = c / 1024;
    4. an array all of whose entries are covered by blocks of one function is that function.
-/
import proofs.«101221_j8942121910926_2_alg».proof.Proof.Gen.KernelIdeal.Frame
import proofs.«101221_j8942121910926_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.MatMul
open Cert.KernelIdeal Cert.KernelIdeal.Gen Idealize.ShloMosaic Idealize.ShloMosaic.TcCoe Idealize.SL.Sem
open Idealize.ShloMosaic.Pipeline (Dat)
open Idealize.ShloMosaic.ValueIdx

/-! ## 1. The stored value at an entry of a block -/

/-- The product's dimension numbers: a 256 × 4096 left operand and a 1024 × 4096 right operand, each contracted along
    its axis 1 (the 4096 input features); the result is 256 × 1024, left rows by right rows. -/
abbrev prodDims := dot_S256x4096_S1024x4096_S256x1024_1_1_0_0_n_n

/-- At result entry `j` and contraction position `κ` the left operand is read in row `j 0` … -/
theorem lhs_row (j : S256x1024.Idx) (κ : prodDims.contr.Idx) : (prodDims.lhsIdx j κ 0).val = (j 0).val := by
  unfold DotDims.lhsIdx
  rw [dif_neg (show ¬(0 : Fin S256x4096.rank) ∈ prodDims.lhsBatch by decide),
    dif_pos (show (0 : Fin S256x4096.rank) ∈ prodDims.lhsNonContracting by decide)]
  rfl
/-- … and column `κ`; -/
theorem lhs_col (j : S256x1024.Idx) (κ : prodDims.contr.Idx) : (prodDims.lhsIdx j κ 1).val = (κ ⟨0, by decide⟩).val :=
  prodDims.lhsIdx_val_of_single rfl j κ
/-- the right operand is read in row `j 1` (the result's COLUMN: the right operand enters transposed) … -/
theorem rhs_row (j : S256x1024.Idx) (κ : prodDims.contr.Idx) : (prodDims.rhsIdx j κ 0).val = (j 1).val := by
  unfold DotDims.rhsIdx
  rw [dif_neg (show ¬(0 : Fin S1024x4096.rank) ∈ prodDims.rhsBatch by decide),
    dif_pos (show (0 : Fin S1024x4096.rank) ∈ prodDims.rhsNonContracting by decide)]
  rfl
/-- … and column `κ`. -/
theorem rhs_col (j : S256x1024.Idx) (κ : prodDims.contr.Idx) : (prodDims.rhsIdx j κ 1).val = (κ ⟨0, by decide⟩).val :=
  prodDims.rhsIdx_val_of_single rfl j κ

/-- The product accumulated onto the zero matrix, at entry (p, q): the sum over the 4096 input features `k` of
    `a (p, k) · b (q, k)`.  Over the extended reals the product at an entry IS the sum over the contraction index of the
    operands' products (added to the accumulator's entry, here zero); the one-axis contraction index is re-indexed by its
    single coordinate `k`, and the two operand indices are read off the dimension numbers by the four lemmas above. -/
theorem product_apply (a : FVec Ideal S256x4096 .bf16) (b : FVec Ideal S1024x4096 .bf16) (p : Fin 256) (q : Fin 1024) :
    matmul prodDims none a b (constant (F := Ideal) S256x1024 .f32 0x00000000#32) (ix2 p q)
      = ∑ k : Fin 4096, a (ix2 p k) * b (ix2 q k) := by
  simp only [matmul]
  rw [Ideal.matmul_constant_zero_apply, ← Equiv.sum_comp (contrEquiv1 prodDims 4096 rfl rfl).symm]
  refine Finset.sum_congr rfl fun k _ => ?_
  have hk := contrEquiv1_symm_val prodDims 4096 rfl rfl k
  have el : prodDims.lhsIdx (ix2 p q) ((contrEquiv1 prodDims 4096 rfl rfl).symm k) = ix2 p k :=
    funext fun a => Fin.ext (by
      match a with
      | ⟨0, _⟩ => exact lhs_row _ _
      | ⟨1, _⟩ => exact (lhs_col _ _).trans hk)
  have er : prodDims.rhsIdx (ix2 p q) ((contrEquiv1 prodDims 4096 rfl rfl).symm k) = ix2 q k :=
    funext fun a => Fin.ext (by
      match a with
      | ⟨0, _⟩ => exact rhs_row _ _
      | ⟨1, _⟩ => exact (rhs_col _ _).trans hk)
  rw [el, er]

/-- THE BODY'S STORED VALUE at entry (p, q), from the three blocks it loaded: `Σ_k x0 (p, k) · x1 (q, k) + x2 (0, q)`.
    The stored value is an entrywise sum of the product and of the 1 × 1024 row repeated down the 256 rows; narrowing the
    left operand to sixteen bits is the identity on the extended reals, and the two reshapes are to the shapes the blocks
    already have. -/
theorem payload_apply (x0 : Vec Ideal S256x4096 .f32) (x1 : Vec Ideal S1024x4096 .bf16) (x2 : Vec Ideal S1x1024 .f32)
    (p : Fin 256) (q : Fin 1024) :
    k1_pay1 x0 x1 x2 (ix2 p q) = (∑ k : Fin 4096, x0 (ix2 p k) * x1 (ix2 q k)) + x2 (ix2 (0 : Fin 1) q) := by
  unfold k1_pay1
  rw [addf_apply, shapeCast_self, shapeCast_self, broadcastTo_1b_ab_apply]
  refine congrArg (· + x2 (ix2 (0 : Fin 1) q)) ?_
  exact product_apply _ _ p q

/-! ## 2. What a point writes back -/

/-- The body loads and stores whole blocks: offsets (0, 0). -/
theorem zero_offsets : (![0, 0] : Fin 2 → Nat) = fun _ => 0 := funext fun a => by fin_cases a <;> rfl

/-- The block indices of the four windows at a point, decided over the 128 points: the x-block's row index is the
    output block's row index; the D-block's row index is the output block's COLUMN index; the bias block's column index
    is the output block's column index; the remaining indices are 0; and the output block's indices are at most 31 and 3. -/
theorem block_indices : ∀ t : Fin cfg1.N,
    win1_0.index t (0 : Fin 2) = win1_3.index t (0 : Fin 2)
    ∧ win1_0.index t (1 : Fin 2) = 0
    ∧ win1_1.index t (0 : Fin 2) = win1_3.index t (1 : Fin 2)
    ∧ win1_1.index t (1 : Fin 2) = 0
    ∧ win1_2.index t (0 : Fin 2) = 0
    ∧ win1_2.index t (1 : Fin 2) = win1_3.index t (1 : Fin 2)
    ∧ win1_3.index t (0 : Fin 2) ≤ 31 ∧ win1_3.index t (1 : Fin 2) ≤ 3 :=
  (by decide +kernel : ∀ t : Fin grid1.N, _)

/-- Every pair (row-block, column-block) of the output is some point's. -/
theorem block_indices_onto : ∀ (b0 : Fin 32) (b1 : Fin 4), ∃ t : Fin cfg1.N, win1_3.index t = ![b0.val, b1.val] :=
  (by decide +kernel : ∀ (b0 : Fin 32) (b1 : Fin 4), ∃ t : Fin grid1.N, win1_3.index t = ![b0.val, b1.val])

/-- The array row under row `p` of point `t`'s output block: block row index × 256 + p. -/
def row (t : Fin cfg1.N) (p : Fin 256) : Fin 8192 :=
  ⟨win1_3.index t (0 : Fin 2) * 256 + p.val, by have := (block_indices t).2.2.2.2.2.2.1; have := p.isLt; omega⟩
/-- The array column under column `q` of point `t`'s output block: block column index × 1024 + q. -/
def col (t : Fin cfg1.N) (q : Fin 1024) : Fin 4096 :=
  ⟨win1_3.index t (1 : Fin 2) * 1024 + q.val, by have := (block_indices t).2.2.2.2.2.2.2; have := q.isLt; omega⟩

/-- Entry (p, q) of the output block lies at (row p, col q) of the output array. -/
theorem out_emb (t : Fin cfg1.N) (p : Fin 256) (q : Fin 1024) :
    ((cfg1.win 3).blk t).view.emb (ix2 p q) = ix2 (row t p) (col t q) := by
  funext a; apply Fin.ext
  match a with
  | ⟨0, _⟩ => show win1_3.index t (0 : Fin 2) * 256 + 1 * p.val = win1_3.index t (0 : Fin 2) * 256 + p.val; omega
  | ⟨1, _⟩ => show win1_3.index t (1 : Fin 2) * 1024 + 1 * q.val = win1_3.index t (1 : Fin 2) * 1024 + q.val; omega

/-- Entry (p, k) of the x-block lies at (row p, k) of x: the x-block is the full-width band of rows under the output block. -/
theorem x_emb (t : Fin cfg1.N) (p : Fin 256) (k : Fin 4096) :
    ((cfg1.win 0).blk t).view.emb (ix2 p k) = ix2 (row t p) k := by
  obtain ⟨e0, e1, -⟩ := block_indices t
  funext a; apply Fin.ext
  match a with
  | ⟨0, _⟩ => show win1_0.index t (0 : Fin 2) * 256 + 1 * p.val = win1_3.index t (0 : Fin 2) * 256 + p.val; omega
  | ⟨1, _⟩ => show win1_0.index t (1 : Fin 2) * 4096 + 1 * k.val = k.val; omega

/-- Entry (q, k) of the D-block lies at (col q, k) of D: the D-block is the full-width band of ROWS of D that are the
    output block's COLUMNS. -/
theorem dw_emb (t : Fin cfg1.N) (q : Fin 1024) (k : Fin 4096) :
    ((cfg1.win 1).blk t).view.emb (ix2 q k) = ix2 (col t q) k := by
  obtain ⟨-, -, e2, e3, -⟩ := block_indices t
  funext a; apply Fin.ext
  match a with
  | ⟨0, _⟩ => show win1_1.index t (0 : Fin 2) * 1024 + 1 * q.val = win1_3.index t (1 : Fin 2) * 1024 + q.val; omega
  | ⟨1, _⟩ => show win1_1.index t (1 : Fin 2) * 4096 + 1 * k.val = k.val; omega

/-- Entry (0, q) of the bias block lies at (0, col q) of the bias row. -/
theorem bias_emb (t : Fin cfg1.N) (q : Fin 1024) :
    ((cfg1.win 2).blk t).view.emb (ix2 (0 : Fin 1) q) = ix2 (0 : Fin 1) (col t q) := by
  obtain ⟨-, -, -, -, e4, e5, -⟩ := block_indices t
  funext a; apply Fin.ext
  match a with
  | ⟨0, _⟩ => show win1_2.index t (0 : Fin 2) * 1 + 1 * 0 = 0; omega
  | ⟨1, _⟩ => show win1_2.index t (1 : Fin 2) * 1024 + 1 * q.val = win1_3.index t (1 : Fin 2) * 1024 + q.val; omega

variable (V : (c : Dev nD) → (b : Ref sig .tc) → Buf (Elt Ideal) ((c : Thread nD τ).loc b))

/-- The x-block at a point, read at (p, k), is x at (row p, k). -/
theorem x_block (c : Dev nD) (t : Fin cfg1.N) (p : Fin 256) (k : Fin 4096) :
    (iblk1 V c 0 t : Vec Ideal S256x4096 .f32) (ix2 p k) = (V c main_arg0 : S8192x4096.Idx → EReal) (ix2 (row t p) k) := by
  show V c main_arg0 (((cfg1.win 0).blk t).view.emb (ix2 p k)) = _
  rw [x_emb]

/-- The D-block at a point, read at (q, k), is D at (col q, k). -/
theorem dw_block (c : Dev nD) (t : Fin cfg1.N) (q : Fin 1024) (k : Fin 4096) :
    (iblk1 V c 1 t : Vec Ideal S1024x4096 .bf16) (ix2 q k) = (V c main_v2 : S4096x4096.Idx → EReal) (ix2 (col t q) k) := by
  show V c main_v2 (((cfg1.win 1).blk t).view.emb (ix2 q k)) = _
  rw [dw_emb]

/-- The bias block at a point, read at (0, q), is the bias row at (0, col q). -/
theorem bias_block (c : Dev nD) (t : Fin cfg1.N) (q : Fin 1024) :
    (iblk1 V c 2 t : Vec Ideal S1x1024 .f32) (ix2 (0 : Fin 1) q) = (V c main_v1 : S1x4096.Idx → EReal) (ix2 (0 : Fin 1) (col t q)) := by
  show V c main_v1 (((cfg1.win 2).blk t).view.emb (ix2 (0 : Fin 1) q)) = _
  rw [bias_emb]

/-- WHAT POINT `t` WRITES BACK is block `t` of `x · Dᵀ + ρ`: the body stores one whole block, whose entry (p, q) is
    `Σ_k xblock (p, k) · Dblock (q, k) + ρblock (0, q)` (`payload_apply`), and the three blocks read x at row `row p`,
    D at row `col q` and ρ at column `col q` — the coordinates of the output array's entry under (p, q). -/
theorem flushed_eq (c : Dev nD) (t : Fin cfg1.N) :
    (dat1 (F := Ideal) V c).flushed 3 t
      = ((cfg1.win 3).blk t).view.read (Elt Ideal) (Cert.Ternary.affine (V c main_arg0) (V c main_v2) (V c main_v1)) := by
  show (cfg1.win 3).cut (grid1.coords t) ((dat1 V c).after 3 t) = _
  rw [after1_3]
  unfold out1_3
  rw [View.canon_unit_zero zero_offsets]
  simp only [View.ld_unit_zero (S := S256x4096) zero_offsets, View.ld_unit_zero (S := S1024x4096) zero_offsets,
    View.ld_unit_zero (S := S1x1024) zero_offsets]
  funext j
  obtain ⟨p, q, rfl⟩ : ∃ (p : Fin 256) (q : Fin 1024), j = ix2 p q := ⟨j 0, j 1, eq_ix2 j⟩
  refine (payload_apply (iblk1 V c 0 t) (iblk1 V c 1 t) (iblk1 V c 2 t) p q).trans ?_
  show _ = Cert.Ternary.affine (V c main_arg0) (V c main_v2) (V c main_v1) (((cfg1.win 3).blk t).view.emb (ix2 p q))
  rw [out_emb, Cert.Ternary.affine_ix2]
  unfold Cert.Ternary.affineAt
  exact congrArg₂ (· + ·)
    (Finset.sum_congr rfl fun k _ => congrArg₂ (· * ·) (x_block V c t p k) (dw_block V c t q k))
    (bias_block V c t q)

/-! ## 3. The blocks cover the output -/

/-- An entry of the output array is in point `t`'s block iff each coordinate is in the block's range on its axis. -/
theorem mem_block (t : Fin cfg1.N) (i : S8192x4096.Idx) :
    i ∈ ((cfg1.win 3).blk t).view.set ↔ ∀ a : Fin 2, win1_3.index t a * S256x1024.size a ≤ (i a).val
      ∧ (i a).val < win1_3.index t a * S256x1024.size a + S256x1024.size a := by
  show i ∈ ((View.whole main_v3).slice (win1_3.rect t)).set ↔ _
  rw [View.set_slice_whole, Rect.mem_set_unit]
  exact Iff.rfl

/-- Entry (r, c) is written back by the point whose output block has row index r / 256 and column index c / 1024. -/
theorem covered (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  obtain ⟨t, ht⟩ := block_indices_onto ⟨(i 0).val / 256, by omega⟩ ⟨(i 1).val / 1024, by omega⟩
  have q0 : win1_3.index t (0 : Fin 2) = (i 0).val / 256 := congrFun ht 0
  have q1 : win1_3.index t (1 : Fin 2) = (i 1).val / 1024 := congrFun ht 1
  refine ⟨t, flush1_3 t, ?_⟩
  rw [mem_block]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 1024 ≤ (i 1).val ∧ (i 1).val < win1_3.index t (1 : Fin 2) * 1024 + 1024; omega

/-! ## 4. The array after the pass -/

/-- After pass 2 the output array holds, entry (r, c), the sum over k of x (r, k) · dW (c, k) plus the bias row's entry c, of the arrays the pass found. -/
theorem array_eq (c : Dev nD) :
    (dat1 (F := Ideal) V c).arrAt 3 cfg1.N = Cert.Ternary.affine (V c main_arg0) (V c main_v2) (V c main_v1) :=
  (dat1 V c).arrAt_eq_of_cover 3 _ (fun t _ => flushed_eq V c t) covered

end Cert.KernelIdeal.MatMul
end
-- ==== Proof.KernelValue.lean ====
/-
  The kernel program's result is the collapsed form of the ternary linear layer.

  Pass 2 leaves `x' · D'ᵀ + ρ'` of the three arrays it finds (module `MatMul`); it finds the tokens `x` as launched, the
  bias row `ρ' (0, c) = b1 c − b2 c` the host operations wrote, and the matrix `D'` pass 1 left; pass 1 leaves
  `sign W1' − sign W2'` of the two arrays it finds (module `SignDiff`), and finds the weights as launched.  Substituting
  one into the other, the result buffer ends at
      out (r, c) = Σ_k x (r, k) · (sign W1 (c, k) − sign W2 (c, k)) + (b1 c − b2 c)
  of the launched arguments, at every input.
-/
import proofs.«101221_j8942121910926_2_alg».proof.Proof.KernelRun
import proofs.«101221_j8942121910926_2_alg».proof.Proof.SignDiff
import proofs.«101221_j8942121910926_2_alg».proof.Proof.MatMul

noncomputable section

namespace Cert.KernelIdeal.RunValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The result buffer's final contents: the collapsed form of the launched arguments. -/
theorem result_value (c : Dev nD) :
    W3 m ρ c (Proc.devRef .tc main_v3)
      = Cert.Ternary.collapsed (m ((c : Thread nD τ).loc main_arg0)) (m ((c : Thread nD τ).loc main_arg1))
          (m ((c : Thread nD τ).loc main_arg2)) (m ((c : Thread nD τ).loc main_arg3)) (m ((c : Thread nD τ).loc main_arg4)) := by
  rw [result_eq, Cert.KernelIdeal.MatMul.array_eq (V2 m ρ) c, found_x, found_biasRow, found_signDiff,
    Cert.KernelIdeal.SignDiff.array_eq (V1 m ρ) c, found_W1, found_W2]
  rfl

/-- Every weakly fair execution of the kernel program terminates, nothing faulting, with the result at the collapsed form
    of the launched arguments and the arguments as launched. -/
theorem run : θ_run defs (onTc (τ := τ) (main (F := Ideal))) ⟨m, fun _ => 0, ρ⟩ (fun r => ∀ c : Dev nD,
      r.2.mem ((c.tc : Thread nD τ).loc main_v3)
        = Cert.Ternary.collapsed (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_value m ρ c), (h c).2⟩) (run_result m ρ)

end Cert.KernelIdeal.RunValue

end
-- ==== Proof.lean ====
/-
  The ternary linear layer: a two-pass kernel against the difference of two binarized linear maps.

  The layer maps tokens `x` (8192 × 4096), weights `W1`, `W2` (4096 × 4096) and biases `b1`, `b2` (4096) to
      out (r, c) = (Σ_k x (r, k) · sign W1 (c, k) + b1 c) − (Σ_k x (r, k) · sign W2 (c, k) + b2 c).
  The reference computes exactly this, each `sign w` in the straight-through form `w + (sign w − w)`.  The kernel first
  forms the ternary matrix `D = sign W1 − sign W2` (pass 1, sixteen row blocks), then the single product `x · Dᵀ` plus the
  bias difference `b1 − b2` (pass 2, a 4 × 32 grid of output tiles).

  The five claims:
  * the three frames — each program runs to the end without a fault and leaves its arguments as launched: the kernel's two
    from the generated frame proofs of its two passes, the reference's from its generated run;
  * `preserves`: the idealized kernel differs from the printed one at two places, the two `sign`s of pass 1, where "1.0
    carrying v's sign bit" is read as "−1 where v < 0, else 1"; each is the sign-bit rule's statement;
  * `algebraic`: on the extended reals the kernel's result is the collapsed form `Σ_k x (r, k) · (sign W1 (c, k) − sign W2 (c, k))
    + (b1 c − b2 c)` of its arguments (modules `SignDiff`, `MatMul`, `KernelRun`, `KernelValue`), the reference's is the
    two-layer form above (module `Reference`), and on finite inputs — the precondition (module `Finite`) — the two forms are
    one array (module `Algebra`: cancelling `w − w`, distributing `x` over `s1 − s2`, regrouping the sums; each step needs the
    entries to be real numbers, and fails at an infinity).
-/
import proofs.«101221_j8942121910926_2_alg».proof.Defs
import proofs.«101221_j8942121910926_2_alg».proof.Proof.Gen.Kernel
import proofs.«101221_j8942121910926_2_alg».proof.Proof.Gen.Kernel.Frame
import proofs.«101221_j8942121910926_2_alg».proof.Proof.Gen.KernelIdeal
import proofs.«101221_j8942121910926_2_alg».proof.Proof.Gen.KernelIdeal.Frame
import proofs.«101221_j8942121910926_2_alg».proof.Proof.Gen.ReferenceIdeal
import proofs.«101221_j8942121910926_2_alg».proof.Proof.Gen.ReferenceIdeal.Run
import proofs.«101221_j8942121910926_2_alg».proof.Proof.Gen.ReferenceIdeal.Read
import proofs.«101221_j8942121910926_2_alg».proof.Proof.Gen.Pre_finite_inputs
import proofs.«101221_j8942121910926_2_alg».proof.Proof.Spec
import proofs.«101221_j8942121910926_2_alg».proof.Proof.Algebra
import proofs.«101221_j8942121910926_2_alg».proof.Proof.Finite
import proofs.«101221_j8942121910926_2_alg».proof.Proof.Reference
import proofs.«101221_j8942121910926_2_alg».proof.Proof.KernelValue

noncomputable section

namespace Cert.Proof

open Idealize.ShloMosaic Idealize.SL.Sem

/-- The printed kernel runs to the end and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two rewrites of the idealization, one per `sign` of pass 1: reading the sign bit of `v` as `v < 0`. -/
theorem preserves : Cert.preserves_Kernel_KernelIdeal :=
  ⟨IdealRules.sign_bit.statement _ _, IdealRules.sign_bit.statement _ _⟩

/-- On finite inputs the kernel and the reference end with the same array: the kernel's is the collapsed form, the
    reference's the two-layer form, of arguments that agree; the precondition makes every entry a real number, and on real
    entries the two forms coincide. -/
theorem algebraic : Cert.algebraic_KernelIdeal_ReferenceIdeal := by
  intro m ρ m' ρ' hpre hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨hx, h1, h2, hb1, hb2⟩ := Cert.Pre_finite_inputs.Finite.entries_real _ _ _ _ _ (hpre c)
  rw [Cert.ReferenceIdeal.Read.val_main_v16_eq, Cert.ReferenceIdeal.RefValue.value_eq,
    (hagree c).1, (hagree c).2.1, (hagree c).2.2.1, (hagree c).2.2.2.1, (hagree c).2.2.2.2]
  exact Cert.Ternary.twoLayer_eq_collapsed _ _ _ _ _ hx h1 h2 hb1 hb2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
